-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x4352 : Shape := ⟨2, ![256, 4352]⟩
abbrev S5177344 : Shape := ⟨1, ![5177344]⟩
abbrev S4352 : Shape := ⟨1, ![4352]⟩
abbrev S_ : Shape := ⟨0, ![]⟩

class Facts : Prop where
  bcast_S_S256x4352 : S_.BroadcastsInDim S256x4352 (![] : Fin 0 → Fin S256x4352.rank)
  reducesTo_S256x4352_S_d0_1 : S256x4352.ReducesTo [0, 1] S_
  h_S_ : 0 < S_.numel
  bcast_S_S5177344 : S_.BroadcastsInDim S5177344 (![] : Fin 0 → Fin S5177344.rank)
  reducesTo_S5177344_S_d0 : S5177344.ReducesTo [0] S_
  bcast_S_S4352 : S_.BroadcastsInDim S4352 (![] : Fin 0 → Fin S4352.rank)
  reducesTo_S4352_S_d0 : S4352.ReducesTo [0] S_

variable [Facts]

def fn {F : FTy → Type} [FloatOps F] (main_arg0 : FVec F S256x4352 .f32) (main_arg1 : FVec F S5177344 .f32) (main_arg2 : FVec F S4352 .f32) (main_arg3 : IVec S5177344 32) : IVec S_ 1 :=
  let main_v0 : FVec F S256x4352 .f32 := Host.absf main_arg0
  let main_cst : FVec F S_ .f32 := constant S_ .f32 0x7F800000#32
  let main_v1 : FVec F S256x4352 .f32 := broadcastInDim S256x4352 ![] bcast_S_S256x4352 main_cst
  let main_v2 : IVec S256x4352 1 := cmpf .olt main_v0 main_v1
  let main_c : IVec S_ 1 := constantI S_ 1 1#1
  let main_v3 : IVec S_ 1 := (fun x v => Host.reduce IntOp.andi x v reducesTo_S256x4352_S_d0_1 h_S_) main_v2 main_c
  let main_v4 : FVec F S5177344 .f32 := Host.absf main_arg1
  let main_cst_0 : FVec F S_ .f32 := constant S_ .f32 0x7F800000#32
  let main_v5 : FVec F S5177344 .f32 := broadcastInDim S5177344 ![] bcast_S_S5177344 main_cst_0
  let main_v6 : IVec S5177344 1 := cmpf .olt main_v4 main_v5
  let main_c_1 : IVec S_ 1 := constantI S_ 1 1#1
  let main_v7 : IVec S_ 1 := (fun x v => Host.reduce IntOp.andi x v reducesTo_S5177344_S_d0 h_S_) main_v6 main_c_1
  let main_v8 : IVec S_ 1 := andi main_v3 main_v7
  let main_v9 : FVec F S4352 .f32 := Host.absf main_arg2
  let main_cst_2 : FVec F S_ .f32 := constant S_ .f32 0x7F800000#32
  let main_v10 : FVec F S4352 .f32 := broadcastInDim S4352 ![] bcast_S_S4352 main_cst_2
  let main_v11 : IVec S4352 1 := cmpf .olt main_v9 main_v10
  let main_c_3 : IVec S_ 1 := constantI S_ 1 1#1
  let main_v12 : IVec S_ 1 := (fun x v => Host.reduce IntOp.andi x v reducesTo_S4352_S_d0 h_S_) main_v11 main_c_3
  let main_v13 : IVec S_ 1 := andi main_v8 main_v12
  main_v13
-- ==== Kernel.lean ====
abbrev S256x4352 : Shape := ⟨2, ![256, 4352]⟩
abbrev S5177344 : Shape := ⟨1, ![5177344]⟩
abbrev S4352 : Shape := ⟨1, ![4352]⟩
abbrev S_ : Shape := ⟨0, ![]⟩
abbrev S18939904 : Shape := ⟨1, ![18939904]⟩
abbrev S5177344x1 : Shape := ⟨2, ![5177344, 1]⟩
abbrev S4352x4352 : Shape := ⟨2, ![4352, 4352]⟩
abbrev S1x4352 : Shape := ⟨2, ![1, 4352]⟩
abbrev S512x4352 : Shape := ⟨2, ![512, 4352]⟩
abbrev S1x512 : Shape := ⟨2, ![1, 512]⟩
abbrev S256x512 : Shape := ⟨2, ![256, 512]⟩

abbrev nBuf : Space → Nat
  | .hbm => 18
  | .vmem => 7
  | .smem => 0
  | _ => 0

abbrev bufTy : (tb : Table) → Fin (tcTables nBuf tb) → BufTy
  | .hbm, ⟨0, _⟩ => ⟨S256x4352, .f32⟩
  | .hbm, ⟨1, _⟩ => ⟨S5177344, .f32⟩
  | .hbm, ⟨2, _⟩ => ⟨S4352, .f32⟩
  | .hbm, ⟨3, _⟩ => ⟨S5177344, .i32⟩
  | .hbm, ⟨4, _⟩ => ⟨S_, .f32⟩
  | .hbm, ⟨5, _⟩ => ⟨S18939904, .f32⟩
  | .hbm, ⟨6, _⟩ => ⟨S_, .i32⟩
  | .hbm, ⟨7, _⟩ => ⟨S5177344, .i32⟩
  | .hbm, ⟨8, _⟩ => ⟨S5177344, .i1⟩
  | .hbm, ⟨9, _⟩ => ⟨S_, .i32⟩
  | .hbm, ⟨10, _⟩ => ⟨S5177344, .i32⟩
  | .hbm, ⟨11, _⟩ => ⟨S5177344, .i32⟩
  | .hbm, ⟨12, _⟩ => ⟨S5177344, .i32⟩
  | .hbm, ⟨13, _⟩ => ⟨S5177344x1, .i32⟩
  | .hbm, ⟨14, _⟩ => ⟨S18939904, .f32⟩
  | .hbm, ⟨15, _⟩ => ⟨S4352x4352, .f32⟩
  | .hbm, ⟨16, _⟩ => ⟨S1x4352, .f32⟩
  | .hbm, ⟨17, _⟩ => ⟨S256x4352, .f32⟩
  | .local _ .vmem, ⟨0, _⟩ => ⟨S256x4352, .f32⟩
  | .local _ .vmem, ⟨1, _⟩ => ⟨S512x4352, .f32⟩
  | .local _ .vmem, ⟨2, _⟩ => ⟨S512x4352, .f32⟩
  | .local _ .vmem, ⟨3, _⟩ => ⟨S1x512, .f32⟩
  | .local _ .vmem, ⟨4, _⟩ => ⟨S1x512, .f32⟩
  | .local _ .vmem, ⟨5, _⟩ => ⟨S256x512, .f32⟩
  | .local _ .vmem, ⟨6, _⟩ => ⟨S256x512, .f32⟩
  | _, _ => ⟨S256x4352, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![9], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S256x4352 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x4352 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S18939904 : S_.BroadcastsInDim S18939904 (![] : Fin 0 → Fin S18939904.rank)
  bcast_S_S5177344 : S_.BroadcastsInDim S5177344 (![] : Fin 0 → Fin S5177344.rank)
  bcast_S5177344_S5177344x1_0 : S5177344.BroadcastsInDim S5177344x1 (![0] : Fin 1 → Fin S5177344x1.rank)
  shapeCasts_S18939904_S4352x4352 : S18939904.ShapeCasts S4352x4352
  shapeCasts_S4352_S1x4352 : S4352.ShapeCasts S1x4352
  inb_S256x4352_S256x4352_0_0 : ∀ a, (![0, 0] : Fin 2 → Nat) a + S256x4352.size a ≤ S256x4352.size a
  h_S256x4352 : 0 < S256x4352.numel
  bitsLt_bf16_f32 : FTy.bits .bf16 < FTy.bits .f32
  inb_S512x4352_S512x4352_0_0 : ∀ a, (![0, 0] : Fin 2 → Nat) a + S512x4352.size a ≤ S512x4352.size a
  h_S512x4352 : 0 < S512x4352.numel
  shapeCasts_S512x4352_S512x4352 : S512x4352.ShapeCasts S512x4352
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S256x512 : S1x512.Broadcasts S256x512
  inb_S256x512_S256x512_0_0 : ∀ a, (![0, 0] : Fin 2 → Nat) a + S256x512.size a ≤ S256x512.size a
  h_S256x512 : 0 < S256x512.numel
  scatter_S18939904_S5177344x1_S5177344_n_0_0_1_wf : ScatterDims.WF S18939904 S5177344x1 S5177344 [] [0] [0] 1
  dot_S256x4352_S512x4352_S256x512_1_1_0_0_n_n_wf : DotDims.WF S256x4352 S512x4352 S256x512 [1] [1] [0] [0] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x4352.size a ≤ S256x4352.size a
  hwx0_0 : ∀ i : grid0.Coords, EltTy.bits .f32 = 32 ∨ (Rect.block (s := S256x4352) S256x4352.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S512x4352.size a < S4352x4352.size a
  hwx0_1 : ∀ i : grid0.Coords, EltTy.bits .f32 = 32 ∨ (Rect.unit (s := S4352x4352) (fun a => cc0_transform_1 i a * S512x4352.size a) (fun a => (Pipeline.Clip.of (cc0_transform_1 i a) (S512x4352.size a) (S4352x4352.size a)).extent (S512x4352.size a)) fun a => Pipeline.Clip.inb (Pipeline.Clip.ok_of (hstart0_1 i a))).WholeWords (EltTy.packing .f32)
  hwxs0_1 : ∀ i : grid0.Coords, EltTy.bits .f32 = 32 ∨ (Rect.unit (s := S512x4352) (fun _ => 0) (fun a => (Pipeline.Clip.of (cc0_transform_1 i a) (S512x4352.size a) (S4352x4352.size a)).extent (S512x4352.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x512.size a < S1x4352.size a
  hwx0_2 : ∀ i : grid0.Coords, EltTy.bits .f32 = 32 ∨ (Rect.unit (s := S1x4352) (fun a => cc0_transform_2 i a * S1x512.size a) (fun a => (Pipeline.Clip.of (cc0_transform_2 i a) (S1x512.size a) (S1x4352.size a)).extent (S1x512.size a)) fun a => Pipeline.Clip.inb (Pipeline.Clip.ok_of (hstart0_2 i a))).WholeWords (EltTy.packing .f32)
  hwxs0_2 : ∀ i : grid0.Coords, EltTy.bits .f32 = 32 ∨ (Rect.unit (s := S1x512) (fun _ => 0) (fun a => (Pipeline.Clip.of (cc0_transform_2 i a) (S1x512.size a) (S1x4352.size a)).extent (S1x512.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S256x512.size a < S256x4352.size a
  hwx0_3 : ∀ i : grid0.Coords, EltTy.bits .f32 = 32 ∨ (Rect.unit (s := S256x4352) (fun a => cc0_transform_3 i a * S256x512.size a) (fun a => (Pipeline.Clip.of (cc0_transform_3 i a) (S256x512.size a) (S256x4352.size a)).extent (S256x512.size a)) fun a => Pipeline.Clip.inb (Pipeline.Clip.ok_of (hstart0_3 i a))).WholeWords (EltTy.packing .f32)
  hwxs0_3 : ∀ i : grid0.Coords, EltTy.bits .f32 = 32 ∨ (Rect.unit (s := S256x512) (fun _ => 0) (fun a => (Pipeline.Clip.of (cc0_transform_3 i a) (S256x512.size a) (S256x4352.size a)).extent (S256x512.size a)) fun a => (Nat.zero_add _).trans_le (Pipeline.Clip.extent_le (Pipeline.Clip.ok_of (hstart0_3 i a)))).WholeWords (EltTy.packing .f32)

variable [Facts₀]

def scatter_S18939904_S5177344x1_S5177344_n_0_0_1 : ScatterDims S18939904 S5177344x1 S5177344 where
  updateWindowDims := []
  insertedWindowDims := [0]
  scatterDimsToOperandDims := [0]
  indexVectorDim := 1
  wf := scatter_S18939904_S5177344x1_S5177344_n_0_0_1_wf
def dot_S256x4352_S512x4352_S256x512_1_1_0_0_n_n : DotDims S256x4352 S512x4352 S256x512 where
  lhsContracting := [1]
  rhsContracting := [1]
  lhsNonContracting := [0]
  rhsNonContracting := [0]
  lhsBatch := []
  rhsBatch := []
  wf := dot_S256x4352_S512x4352_S256x512_1_1_0_0_n_n_wf

abbrev win0_0 : Pipeline.Window sig grid0 :=
  Pipeline.Window.ofSpec (Memref.whole main_arg0) S256x4352.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpecClip (Memref.whole main_v8) S512x4352.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v9) S1x512.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpecClip (Memref.whole main_v10) S256x512.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x4352 : Shape := ⟨2, ![256, 4352]⟩
abbrev S5177344 : Shape := ⟨1, ![5177344]⟩
abbrev S4352 : Shape := ⟨1, ![4352]⟩
abbrev S_ : Shape := ⟨0, ![]⟩
abbrev S18939904 : Shape := ⟨1, ![18939904]⟩
abbrev S5177344x1 : Shape := ⟨2, ![5177344, 1]⟩
abbrev S4352x4352 : Shape := ⟨2, ![4352, 4352]⟩
abbrev S1x4352 : Shape := ⟨2, ![1, 4352]⟩

abbrev nBuf : Space → Nat
  | .hbm => 21
  | .vmem => 0
  | .smem => 0
  | _ => 0

abbrev bufTy : (tb : Table) → Fin (tcTables nBuf tb) → BufTy
  | .hbm, ⟨0, _⟩ => ⟨S256x4352, .f32⟩
  | .hbm, ⟨1, _⟩ => ⟨S5177344, .f32⟩
  | .hbm, ⟨2, _⟩ => ⟨S4352, .f32⟩
  | .hbm, ⟨3, _⟩ => ⟨S5177344, .i32⟩
  | .hbm, ⟨4, _⟩ => ⟨S_, .f32⟩
  | .hbm, ⟨5, _⟩ => ⟨S18939904, .f32⟩
  | .hbm, ⟨6, _⟩ => ⟨S_, .i32⟩
  | .hbm, ⟨7, _⟩ => ⟨S5177344, .i32⟩
  | .hbm, ⟨8, _⟩ => ⟨S5177344, .i1⟩
  | .hbm, ⟨9, _⟩ => ⟨S_, .i32⟩
  | .hbm, ⟨10, _⟩ => ⟨S5177344, .i32⟩
  | .hbm, ⟨11, _⟩ => ⟨S5177344, .i32⟩
  | .hbm, ⟨12, _⟩ => ⟨S5177344, .i32⟩
  | .hbm, ⟨13, _⟩ => ⟨S5177344x1, .i32⟩
  | .hbm, ⟨14, _⟩ => ⟨S18939904, .f32⟩
  | .hbm, ⟨15, _⟩ => ⟨S4352x4352, .f32⟩
  | .hbm, ⟨16, _⟩ => ⟨S4352x4352, .f32⟩
  | .hbm, ⟨17, _⟩ => ⟨S256x4352, .f32⟩
  | .hbm, ⟨18, _⟩ => ⟨S1x4352, .f32⟩
  | .hbm, ⟨19, _⟩ => ⟨S256x4352, .f32⟩
  | .hbm, ⟨20, _⟩ => ⟨S256x4352, .f32⟩
  | _, _ => ⟨S256x4352, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S18939904 : S_.BroadcastsInDim S18939904 (![] : Fin 0 → Fin S18939904.rank)
  bcast_S_S5177344 : S_.BroadcastsInDim S5177344 (![] : Fin 0 → Fin S5177344.rank)
  bcast_S5177344_S5177344x1_0 : S5177344.BroadcastsInDim S5177344x1 (![0] : Fin 1 → Fin S5177344x1.rank)
  shapeCasts_S18939904_S4352x4352 : S18939904.ShapeCasts S4352x4352
  transposes_S4352x4352_S4352x4352_1_0 : S4352x4352.Transposes [1, 0] S4352x4352
  bcast_S4352_S1x4352_1 : S4352.BroadcastsInDim S1x4352 (![1] : Fin 1 → Fin S1x4352.rank)
  bcast_S1x4352_S256x4352_0_1 : S1x4352.BroadcastsInDim S256x4352 (![0, 1] : Fin 2 → Fin S256x4352.rank)
  scatter_S18939904_S5177344x1_S5177344_n_0_0_1_wf : ScatterDims.WF S18939904 S5177344x1 S5177344 [] [0] [0] 1
  dot_S256x4352_S4352x4352_S256x4352_1_0_0_1_n_n_wf : DotDims.WF S256x4352 S4352x4352 S256x4352 [1] [0] [0] [1] [] []

variable [Facts₀]

def scatter_S18939904_S5177344x1_S5177344_n_0_0_1 : ScatterDims S18939904 S5177344x1 S5177344 where
  updateWindowDims := []
  insertedWindowDims := [0]
  scatterDimsToOperandDims := [0]
  indexVectorDim := 1
  wf := scatter_S18939904_S5177344x1_S5177344_n_0_0_1_wf
def dot_S256x4352_S4352x4352_S256x4352_1_0_0_1_n_n : DotDims S256x4352 S4352x4352 S256x4352 where
  lhsContracting := [1]
  rhsContracting := [0]
  lhsNonContracting := [0]
  rhsNonContracting := [1]
  lhsBatch := []
  rhsBatch := []
  wf := dot_S256x4352_S4352x4352_S256x4352_1_0_0_1_n_n_wf

class Facts : Prop extends Facts₀ where

variable [Facts]
-- ==== Proof.BodyRunK.lean ====
/-
  The kernel body, run once on whole staging buffers.

  The body reads the batch block x (256 x 4352), one tile of 512 rows of the dense weight matrix (512 x 4352) and
  the matching 512 bias entries (1 x 512), and stores into the result's buffer (256 x 512) the one value
  `k0_pay1 x a b`: the product of x with the tile's transpose, plus the bias row broadcast down the batch. The
  three input buffers are left as found; what the result's buffer held before is read once and never used.
-/
import proofs.«148907_j59356448030848_1_alg».proof.Proof.Gen.Kernel.Frame
import proofs.«148907_j59356448030848_1_alg».proof.Proof.Gen.Kernel.Skeleton
import Idealize.ShloMosaic.Lib.Pipeline.FrameBody
import Idealize.ShloMosaic.Lib.Pipeline.Value
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body loads and stores through. -/
abbrev rX : Rect S256x4352 := Rect.unit (s := S256x4352) ![0, 0] S256x4352.size inb_S256x4352_S256x4352_0_0
abbrev rA : Rect S512x4352 := Rect.unit (s := S512x4352) ![0, 0] S512x4352.size inb_S512x4352_S512x4352_0_0
abbrev rB : Rect S1x512 := Rect.unit (s := S1x512) ![0, 0] S1x512.size inb_S1x512_S1x512_0_0
abbrev rO : Rect S256x512 := Rect.unit (s := S256x512) ![0, 0] S256x512.size inb_S256x512_S256x512_0_0

/-- What the result's buffer holds after the body: its one whole-buffer store of the payload of the three
    whole-buffer loads. -/
def outTile (x : Vec F S256x4352 .f32) (a : Vec F S512x4352 .f32) (b : Vec F S1x512 .f32) : Vec F S256x512 .f32 :=
  View.canon [⟨rO, k0_pay1 (View.ld x rX) (View.ld a rA) (View.ld b rB)⟩]

/-- The one store covers the result's buffer. -/
theorem outTile_cover (p : Vec F S256x512 .f32) (y : S256x512.Idx) :
    ∃ pc ∈ ([⟨rO, p⟩] : List (View.Piece (Elt F) S256x512 .f32)), y ∈ pc.1.set :=
  View.cover_of_tiled [⟨rO, p⟩] S256x512.size (by rfl) y

theorem zero_offsets : (![0, 0] : Fin 2 → Nat) = fun _ => 0 := funext fun a => by fin_cases a <;> rfl

/-- The store and the loads are of whole buffers, so the result's buffer holds the payload of the buffers' contents. -/
theorem outTile_eq (x : Vec F S256x4352 .f32) (a : Vec F S512x4352 .f32) (b : Vec F S1x512 .f32) :
    outTile x a b = k0_pay1 x a b := by
  unfold outTile
  rw [View.canon_unit_zero zero_offsets]
  simp only [View.ld_unit_zero (S := S256x4352) zero_offsets, View.ld_unit_zero (S := S512x4352) zero_offsets,
    View.ld_unit_zero (S := S1x512) zero_offsets]

set_option maxHeartbeats 1000000 in
/-- The body on whole staging buffers holding `x`, `a`, `b` and anything: it ends with the first three as they
    were and the fourth at `outTile x a b`. -/
theorem sound_kernel (c : Dev nD) (E : Set ℕ) (i : grid0.Coords)
    (arg1 : Memref sig .tc .vmem S256x4352 .f32) (harg1 : arg1.IsWhole) (arg2 : Memref sig .tc .vmem S512x4352 .f32) (harg2 : arg2.IsWhole)
    (arg3 : Memref sig .tc .vmem S1x512 .f32) (harg3 : arg3.IsWhole) (arg4 : Memref sig .tc .vmem S256x512 .f32) (harg4 : arg4.IsWhole)
    (x : Vec F S256x4352 .f32) (a : Vec F S512x4352 .f32) (b : Vec F S1x512 .f32) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (outTile x a b)) -∗ K ⟨⟩))
      ⊢ wp frame (wpE (defs₀ (F := F)) Variants.none c none) E (cc0__lcn_linear_kernel i arg1 harg1 arg2 harg2 arg3 harg3 arg4 harg4) K := by
  simp only [cc0__lcn_linear_kernel_eq_skeleton]; unfold cc0__lcn_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

end Cert.Kernel.Hand

end
-- ==== Proof.KernelFrame.lean ====
/-
  The word-level kernel runs to the end, faults nowhere and leaves its argument arrays as they were.

  Nothing here depends on what the body computes: the proof data is relational. At every tile the body leaves the
  three input staging buffers exactly as it found them and the result's buffer at something; the loop's fetches and
  write-backs (cut at the arrays' end on the ninth tile) then never touch an argument array: x is an input window's
  array, never written back, and the sparse weights, the bias and the index list are read by host operations only.
-/
import proofs.«148907_j59356448030848_1_alg».proof.Proof.BodyRunK
import proofs.«148907_j59356448030848_1_alg».proof.Proof.Gen.Kernel.Frame
import proofs.«148907_j59356448030848_1_alg».proof.Proof.Gen.Kernel.Launch
import proofs.«148907_j59356448030848_1_alg».proof.Proof.Gen.Kernel.Points
import Idealize.ShloMosaic.Lib.Pipeline.Frame
import Idealize.ShloMosaic.Lib.Pipeline.Kit
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational proof data: the arrays as the region finds them; the body leaves each input buffer as found and the
    result's buffer at anything. -/
def rdat (c : Dev nD) : RDat τ (Elt F) Unit ℕ (UR sig nD τ) ℕ cfg0 c where
  A w := V m c (Pipeline.arrRef spec0 w)
  after w _ Y X := match w with
    | ⟨0, _⟩ => X = Y
    | ⟨1, _⟩ => X = Y
    | ⟨2, _⟩ => X = Y
    | ⟨3, _⟩ => True
  Φ _ := Pipeline.ΦA spec0 c
  q _ := fullShare
  owed _ := 0

/-- The body at any tile, on whatever the four staging buffers hold. -/
theorem body_obligation (c : Dev nD) : (rdat m c).BodyObligation (defs₀ (F := F)) Variants.none () Set.univ := fun t Y _ => by
  rw [bigSep_W0, bigSep_W0]
  rw [show (rdat m c).Φ t.succ = (rdat m c).Φ t.castSucc from rfl,
    show (rdat m c).owesAt () t.succ = (rdat m c).owesAt () t.castSucc from rfl]
  iintro ⟨HΦ, Ho, H0, H1, H2, H3⟩
  iapply (sound_kernel (F := F) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (Y 0) (Y 1) (Y 2) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]
  · iexists Y 0; isplitr; · ipureintro; exact rfl
    iexact H0
  isplitl [H1]
  · iexists Y 1; isplitr; · ipureintro; exact rfl
    iexact H1
  isplitl [H2]
  · iexists Y 2; isplitr; · ipureintro; exact rfl
    iexact H2
  · iexists outTile (F := F) (Y 0) (Y 1) (Y 2); isplitr; · ipureintro; exact trivial
    iexact H3

set_option backward.isDefEq.respectTransparency.types false in
/-- Every weakly fair execution of @main terminates; every array of the pipeline ends at contents the relational data
    allows and every other unscoped buffer as the region found it. -/
theorem run_main : θ_run defs (onTc (τ := τ) (main (F := F))) (s₀ m ρ) (RDat.FramePost cfg0 (rdat m) (V m)) :=
  RDat.θ_run_frame cfgs (0 : Fin 1) launch0 defs₀ Variants.none (rdat m) m ρ main
    (hbody := body_obligation m) (hshare := fun c => (rdat m c).share_full fun _ => rfl)
    (howed := fun _ _ => rfl) (V := V m) (hmain := hmain m Variants.none) (hA := fun _ _ => rfl) (hΦ := fun _ _ => rfl)

/-- THE FRAME, at any float instance: x's array is an input window's, never written back; the other three arguments no
    window stages. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((congrFun ((rdat m c).ArrAt_in 0 rfl cfg0.N) _).mp ((h c).1 0)).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.Kernel.Hand

end
-- ==== Proof.BodyRunI.lean ====
/-
  The kernel body, run once on whole staging buffers.

  The body reads the batch block x (256 x 4352), one tile of 512 rows of the dense weight matrix (512 x 4352) and
  the matching 512 bias entries (1 x 512), and stores into the result's buffer (256 x 512) the one value
  `k0_pay1 x a b`: the product of x with the tile's transpose, plus the bias row broadcast down the batch. The
  three input buffers are left as found; what the result's buffer held before is read once and never used.
-/
import proofs.«148907_j59356448030848_1_alg».proof.Proof.Gen.KernelIdeal.Frame
import proofs.«148907_j59356448030848_1_alg».proof.Proof.Gen.KernelIdeal.Skeleton
import Idealize.ShloMosaic.Lib.Pipeline.FrameBody
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four whole-buffer rectangles the body loads and stores through. -/
abbrev rX : Rect S256x4352 := Rect.unit (s := S256x4352) ![0, 0] S256x4352.size inb_S256x4352_S256x4352_0_0
abbrev rA : Rect S512x4352 := Rect.unit (s := S512x4352) ![0, 0] S512x4352.size inb_S512x4352_S512x4352_0_0
abbrev rB : Rect S1x512 := Rect.unit (s := S1x512) ![0, 0] S1x512.size inb_S1x512_S1x512_0_0
abbrev rO : Rect S256x512 := Rect.unit (s := S256x512) ![0, 0] S256x512.size inb_S256x512_S256x512_0_0

/-- What the result's buffer holds after the body: its one whole-buffer store of the payload of the three
    whole-buffer loads. -/
def outTile (x : Vec F S256x4352 .f32) (a : Vec F S512x4352 .f32) (b : Vec F S1x512 .f32) : Vec F S256x512 .f32 :=
  View.canon [⟨rO, k0_pay1 (View.ld x rX) (View.ld a rA) (View.ld b rB)⟩]

/-- The one store covers the result's buffer. -/
theorem outTile_cover (p : Vec F S256x512 .f32) (y : S256x512.Idx) :
    ∃ pc ∈ ([⟨rO, p⟩] : List (View.Piece (Elt F) S256x512 .f32)), y ∈ pc.1.set :=
  View.cover_of_tiled [⟨rO, p⟩] S256x512.size (by rfl) y

theorem zero_offsets : (![0, 0] : Fin 2 → Nat) = fun _ => 0 := funext fun a => by fin_cases a <;> rfl

/-- The store and the loads are of whole buffers, so the result's buffer holds the payload of the buffers' contents. -/
theorem outTile_eq (x : Vec F S256x4352 .f32) (a : Vec F S512x4352 .f32) (b : Vec F S1x512 .f32) :
    outTile x a b = k0_pay1 x a b := by
  unfold outTile
  rw [View.canon_unit_zero zero_offsets]
  simp only [View.ld_unit_zero (S := S256x4352) zero_offsets, View.ld_unit_zero (S := S512x4352) zero_offsets,
    View.ld_unit_zero (S := S1x512) zero_offsets]

set_option maxHeartbeats 1000000 in
/-- The body on whole staging buffers holding `x`, `a`, `b` and anything: it ends with the first three as they
    were and the fourth at `outTile x a b`. -/
theorem sound_kernel (c : Dev nD) (E : Set ℕ) (i : grid0.Coords)
    (arg1 : Memref sig .tc .vmem S256x4352 .f32) (harg1 : arg1.IsWhole) (arg2 : Memref sig .tc .vmem S512x4352 .f32) (harg2 : arg2.IsWhole)
    (arg3 : Memref sig .tc .vmem S1x512 .f32) (harg3 : arg3.IsWhole) (arg4 : Memref sig .tc .vmem S256x512 .f32) (harg4 : arg4.IsWhole)
    (x : Vec F S256x4352 .f32) (a : Vec F S512x4352 .f32) (b : Vec F S1x512 .f32) (K : PUnit → sProp 𝕄) :
    iprop(owns (c : Thread nD τ) arg1 fullShare x ∗ owns (c : Thread nD τ) arg2 fullShare a ∗ owns (c : Thread nD τ) arg3 fullShare b
        ∗ (∃ d, owns (c : Thread nD τ) arg4 fullShare d)
        ∗ (iprop(owns (c : Thread nD τ) arg1 fullShare x ∗ owns (c : Thread nD τ) arg2 fullShare a ∗ owns (c : Thread nD τ) arg3 fullShare b
            ∗ owns (c : Thread nD τ) arg4 fullShare (outTile x a b)) -∗ K ⟨⟩))
      ⊢ wp frame (wpE (defs₀ (F := F)) Variants.none c none) E (cc0__lcn_linear_kernel i arg1 harg1 arg2 harg2 arg3 harg3 arg4 harg4) K := by
  simp only [cc0__lcn_linear_kernel_eq_skeleton]; unfold cc0__lcn_linear_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (outTile_cover _)

end Cert.KernelIdeal.Hand

end
-- ==== Proof.PayloadAt.lean ====
/-
  The body's payload read at one entry, over the extended reals.

  Entry (r, q) of the 256 x 512 tile the body stores is the sum over the 4352 input channels k of x(r, k) * a(q, k),
  plus b(0, q): the two narrowings to bf16 are the identity on extended reals, the product is accumulated into zero,
  and the bias row is broadcast down the batch. Row q of the weight tile and entry q of the bias row are all the
  entry reads of those two buffers.
-/
import proofs.«148907_j59356448030848_1_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Hand

open Cert.KernelIdeal Cert.KernelIdeal.Gen
open Idealize.ShloMosaic Idealize.ShloMosaic.TcCoe Idealize.SL.Sem
open Idealize.ShloMosaic.ValueIdx

/-- The contraction of the tile product runs over one axis of 4352 positions. -/
abbrev tileDot := dot_S256x4352_S512x4352_S256x512_1_1_0_0_n_n

theorem lhs_at (r : Fin 256) (q : Fin 512) (k : Fin 4352) :
    tileDot.lhsIdx (ix2 r q) ((contrEquiv1 tileDot 4352 rfl rfl).symm k) = ix2 r k := by
  have hk := contrEquiv1_symm_val tileDot 4352 rfl rfl k
  funext a
  apply Fin.ext
  match a with
  | ⟨0, _⟩ =>
    show (tileDot.lhsIdx (ix2 r q) _ 0).val = r.val
    unfold DotDims.lhsIdx
    rw [dif_neg (show ¬(0 : Fin S256x4352.rank) ∈ tileDot.lhsBatch by decide),
      dif_pos (show (0 : Fin S256x4352.rank) ∈ tileDot.lhsNonContracting by decide)]
    rfl
  | ⟨1, _⟩ => exact (tileDot.lhsIdx_val_of_single rfl (ix2 r q) _).trans hk

theorem rhs_at (r : Fin 256) (q : Fin 512) (k : Fin 4352) :
    tileDot.rhsIdx (ix2 r q) ((contrEquiv1 tileDot 4352 rfl rfl).symm k) = ix2 q k := by
  have hk := contrEquiv1_symm_val tileDot 4352 rfl rfl k
  funext a
  apply Fin.ext
  match a with
  | ⟨0, _⟩ =>
    show (tileDot.rhsIdx (ix2 r q) _ 0).val = q.val
    unfold DotDims.rhsIdx
    rw [dif_neg (show ¬(0 : Fin S512x4352.rank) ∈ tileDot.rhsBatch by decide),
      dif_pos (show (0 : Fin S512x4352.rank) ∈ tileDot.rhsNonContracting by decide)]
    rfl
  | ⟨1, _⟩ => exact (tileDot.rhsIdx_val_of_single rfl (ix2 r q) _).trans hk

/-- The bias row broadcast down the batch, read at (r, q), is the row's entry q. -/
theorem bias_at (b : Vec Ideal S1x512 .f32) (r : Fin 256) (q : Fin 512) :
    broadcastTo S256x512 (shapeCast S1x512 b shapeCasts_S1x512_S1x512) broadcasts_S1x512_S256x512 (ix2 r q) = b (ix2 0 q) := by
  rw [shapeCast_self]
  exact broadcastTo_apply b broadcasts_S1x512_S256x512 (ix2 r q) (ix2 0 q) (fun a => by
    match a with
    | ⟨0, _⟩ => show 0 = if (1 : Nat) = 1 then 0 else _; rw [if_pos rfl]
    | ⟨1, _⟩ => show q.val = if (512 : Nat) = 1 then 0 else q.val; rw [if_neg (by decide)])

/-- THE PAYLOAD AT AN ENTRY: the sum over the input channels of x's row r against the tile's row q, plus bias q. -/
theorem pay_at (x : Vec Ideal S256x4352 .f32) (a : Vec Ideal S512x4352 .f32) (b : Vec Ideal S1x512 .f32) (r : Fin 256) (q : Fin 512) :
    k0_pay1 (F := Ideal) x a b (ix2 r q) = (∑ k : Fin 4352, x (ix2 r k) * a (ix2 q k)) + b (ix2 0 q) := by
  unfold k0_pay1
  rw [ValueIdx.addf_apply, bias_at]
  congr 1
  simp only [matmul]
  rw [Ideal.matmul_constant_zero_apply, ← Equiv.sum_comp (contrEquiv1 tileDot 4352 rfl rfl).symm]
  refine Finset.sum_congr rfl fun k _ => ?_
  rw [lhs_at, rhs_at, shapeCast_self]
  rfl

end Cert.KernelIdeal.Hand

end
-- ==== Proof.TileData.lean ====
/-
  The nine tiles of the dense layer, over the extended reals: what each staging buffer holds at each tile, the
  kernel body's obligation there, and the result array after the run.

  The layer is out(r, n) = sum over the 4352 input channels k of x(r, k) * a(n, k), plus bias(n), for 256 batch rows r and
  4352 output channels n. The grid walks the output channels in nine tiles of 512: tile t reads all of x, rows
  512 t .. 512 t + 511 of the weight matrix a and the same entries of the bias row, and writes columns
  512 t .. 512 t + 511 of the result. 4352 = 8 * 512 + 256, so the ninth tile overhangs: only its first 256 rows of a,
  bias entries and result columns lie inside the arrays, and what the staging buffers hold past them is not named
  by anything. Entry (r, q) of a tile's product reads only row q of the weight tile and entry q of the bias row, so on
  the columns inside the array the body's result does not depend on those unnamed words: it is the layer's output
  there, which is all the write-back moves.
-/
import proofs.«148907_j59356448030848_1_alg».proof.Proof.BodyRunI
import proofs.«148907_j59356448030848_1_alg».proof.Proof.PayloadAt
import proofs.«148907_j59356448030848_1_alg».proof.Proof.Gen.KernelIdeal.Frame
import proofs.«148907_j59356448030848_1_alg».proof.Proof.Gen.KernelIdeal.Launch
import proofs.«148907_j59356448030848_1_alg».proof.Proof.Gen.KernelIdeal.Points
import Idealize.ShloMosaic.Lib.Pipeline.Frame
import Idealize.ShloMosaic.Lib.Pipeline.FrameBody
import Idealize.ShloMosaic.Lib.Pipeline.Value
import Idealize.ShloMosaic.Lib.Pipeline.Kit
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Idealize.ShloMosaic.ValueIdx

local notation "𝕄" => MT nD τ sig Unit (Elt Ideal) ℕ (UR sig nD τ) ℕ

variable (m : (ℓ : Loc nD τ sig) → Buf (Elt Ideal) ℓ) (ρ : Dev nD → PrngReg)

/-! ## Where the blocks sit -/

/-- At tile `t`: x's one block is the whole array; the weight block starts at row block `t`; the bias block and the
    result block start at column block `t`. -/
theorem tile_index : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

/-- The part of each block inside its array: 512 rows (columns) at the first eight tiles, 256 at the ninth. -/
theorem tile_extent : ∀ t : Fin cfg0.N,
    win0_1.xsize (grid0.coords t) (0 : Fin 2) = (if t.val = 8 then 256 else 512) ∧ win0_1.xsize (grid0.coords t) (1 : Fin 2) = 4352
    ∧ win0_2.xsize (grid0.coords t) (0 : Fin 2) = 1 ∧ win0_2.xsize (grid0.coords t) (1 : Fin 2) = (if t.val = 8 then 256 else 512)
    ∧ win0_3.xsize (grid0.coords t) (0 : Fin 2) = 256 ∧ win0_3.xsize (grid0.coords t) (1 : Fin 2) = (if t.val = 8 then 256 else 512) :=
  (by decide +kernel : ∀ t : Fin grid0.N, _)

/-! ## The layer's output, and the proof data -/

/-- The zero word, as an extended real: the filler for the parts of a staging buffer nothing names. -/
def zeroWord : Elt Ideal .f32 := (FloatOps.ofBits (F := Ideal) .f32 0#32 : Ideal .f32)

/-- The layer as a function of three plainly typed arrays: x, the dense weight matrix, the bias as a one-row matrix. -/
def layerOf (X : Vec Ideal S256x4352 .f32) (A : Vec Ideal S4352x4352 .f32) (B : Vec Ideal S1x4352 .f32) : Vec Ideal S256x4352 .f32 :=
  fun i => (∑ k : Fin 4352, X (ix2 (⟨(i 0).val, (i 0).isLt⟩ : Fin 256) k) * A (ix2 (⟨(i 1).val, (i 1).isLt⟩ : Fin 4352) k))
    + B (ix2 (0 : Fin 1) (⟨(i 1).val, (i 1).isLt⟩ : Fin 4352))

/-- The dense layer's output over the arrays as the region finds them: x, the dense weight matrix the host scattered
    and reshaped, and the bias as a one-row matrix. -/
def layerOut (c : Dev nD) : Buf (Elt Ideal) ((c : Thread nD τ).loc main_v10) :=
  layerOf (V m c main_arg0) (V m c main_v8) (V m c main_v9)

/-- After the body at tile `t`: x's buffer holds x; the weight and bias buffers hold their blocks on the part inside
    the array; the result's buffer holds the layer's output on the columns inside the array. Past the arrays' end the
    obligation states nothing (those windows are loose), and the filler here is the zero word. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (α := Elt Ideal .f32) (grid0.coords t) (fun _ => zeroWord) (iblk m c 1 t)
    | ⟨2, _⟩ => win0_2.fill (α := Elt Ideal .f32) (grid0.coords t) (fun _ => zeroWord) (iblk m c 2 t)
    | ⟨3, _⟩ => win0_3.fill (α := Elt Ideal .f32) (grid0.coords t) (fun _ => zeroWord) ((win0_3.blk t).view.read (Elt Ideal) (layerOut m c))
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) :
    (dats m 0 c).after 1 t = win0_1.fill (α := Elt Ideal .f32) (grid0.coords t) (fun _ => zeroWord) (iblk m c 1 t) := by dsimp only [dats]
theorem after2 (c : Dev nD) (t : Fin cfg0.N) :
    (dats m 0 c).after 2 t = win0_2.fill (α := Elt Ideal .f32) (grid0.coords t) (fun _ => zeroWord) (iblk m c 2 t) := by dsimp only [dats]
theorem after3 (c : Dev nD) (t : Fin cfg0.N) :
    (dats m 0 c).after 3 t = win0_3.fill (α := Elt Ideal .f32) (grid0.coords t) (fun _ => zeroWord) ((win0_3.blk t).view.read (Elt Ideal) (layerOut m c)) := by
  dsimp only [dats]

/-! ## What the body finds -/

/-- x's buffer holds x at every tile (fetched once, never written). -/
theorem before0 (c : Dev nD) (t : Fin cfg0.N) (d) : (dats m 0 c).before 0 t d = iblk m c 0 t :=
  before0_0_of m (dats m 0 c) (A_eq m c 0) (after0 m c) t d

/-- The weight buffer, fetched at every tile: the block on the rows inside the array, anything (`d`) past them. -/
theorem before1 (c : Dev nD) (t : Fin cfg0.N) (d) :
    (dats m 0 c).before 1 t d = win0_1.fill (grid0.coords t) d (iblk m c 1 t) := by
  rw [Dat.before_fetched _ 1 t (fetch0_1 t)]
  unfold Dat.fetched Dat.blockOf iblk
  rw [A_eq]

/-- The bias buffer likewise. -/
theorem before2 (c : Dev nD) (t : Fin cfg0.N) (d) :
    (dats m 0 c).before 2 t d = win0_2.fill (grid0.coords t) d (iblk m c 2 t) := by
  rw [Dat.before_fetched _ 2 t (fetch0_2 t)]
  unfold Dat.fetched Dat.blockOf iblk
  rw [A_eq]

/-! ## A tile's product on the columns inside the array -/

/-- x's one block is the whole array: read through it, any array `X` is itself. -/
theorem x_read (X : Vec Ideal S256x4352 .f32) (t : Fin cfg0.N) (r : Fin 256) (k : Fin 4352) :
    (win0_0.blk t).view.read (Elt Ideal) X (ix2 r k) = X (ix2 r k) := by
  obtain ⟨i00, i01, -⟩ := tile_index t
  show X ((win0_0.blk t).view.emb (ix2 r k)) = _
  refine congrArg X (funext fun a => Fin.ext ?_)
  match a with
  | ⟨0, _⟩ =>
    show win0_0.index t (0 : Fin 2) * 256 + 1 * r.val = r.val
    rw [i00]; omega
  | ⟨1, _⟩ =>
    show win0_0.index t (1 : Fin 2) * 4352 + 1 * k.val = k.val
    rw [i01]; omega

/-- A staging buffer holding `d` after the fetch at tile `t` of a 4352 x 4352 array `A`, on a row `q` inside the array:
    row 512 t + q of `A`, whatever `d` was. -/
theorem a_read (A : Vec Ideal S4352x4352 .f32) (t : Fin cfg0.N) (d : S512x4352.Idx → Elt Ideal .f32) (q : Fin 512) (k : Fin 4352)
    (n : Fin 4352) (hq : q.val < win0_1.xsize (grid0.coords t) (0 : Fin 2)) (hn : n.val = t.val * 512 + q.val) :
    (win0_1.fill (grid0.coords t) d ((win0_1.blk t).view.read (Elt Ideal) A)) (ix2 q k) = A (ix2 n k) := by
  obtain ⟨-, -, i10, i11, -⟩ := tile_index t
  obtain ⟨-, s11, -⟩ := tile_extent t
  have hmv : win0_1.moved (grid0.coords t) (ix2 q k) = true :=
    (win0_1.moved_iff _ _).mpr (fun a => by
      match a with
      | ⟨0, _⟩ => exact hq
      | ⟨1, _⟩ => show k.val < win0_1.xsize (grid0.coords t) (1 : Fin 2); rw [s11]; exact k.isLt)
  unfold Window.fill
  rw [dif_pos hmv]
  show A ((win0_1.blk t).view.emb _) = _
  refine congrArg A (funext fun a => Fin.ext ?_)
  match a with
  | ⟨0, _⟩ =>
    show win0_1.index t (0 : Fin 2) * 512 + 1 * q.val = n.val
    rw [i10, hn]; omega
  | ⟨1, _⟩ =>
    show win0_1.index t (1 : Fin 2) * 4352 + 1 * k.val = k.val
    rw [i11]; omega

/-- The same for a one-row matrix `B` of 4352 entries fetched in blocks of 512: entry 512 t + q. -/
theorem b_read (B : Vec Ideal S1x4352 .f32) (t : Fin cfg0.N) (d : S1x512.Idx → Elt Ideal .f32) (q : Fin 512) (n : Fin 4352)
    (hq : q.val < win0_2.xsize (grid0.coords t) (1 : Fin 2)) (hn : n.val = t.val * 512 + q.val) :
    (win0_2.fill (grid0.coords t) d ((win0_2.blk t).view.read (Elt Ideal) B)) (ix2 (0 : Fin 1) q) = B (ix2 (0 : Fin 1) n) := by
  obtain ⟨-, -, -, -, i20, i21, -⟩ := tile_index t
  obtain ⟨-, -, s20, -⟩ := tile_extent t
  have hmv : win0_2.moved (grid0.coords t) (ix2 (0 : Fin 1) q) = true :=
    (win0_2.moved_iff _ _).mpr (fun a => by
      match a with
      | ⟨0, _⟩ => show 0 < win0_2.xsize (grid0.coords t) (0 : Fin 2); rw [s20]; exact Nat.one_pos
      | ⟨1, _⟩ => exact hq)
  unfold Window.fill
  rw [dif_pos hmv]
  show B ((win0_2.blk t).view.emb _) = _
  refine congrArg B (funext fun a => Fin.ext ?_)
  match a with
  | ⟨0, _⟩ =>
    show win0_2.index t (0 : Fin 2) * 1 + 1 * 0 = 0
    rw [i20]
  | ⟨1, _⟩ =>
    show win0_2.index t (1 : Fin 2) * 512 + 1 * q.val = n.val
    rw [i21, hn]; omega

/-- A tile's payload on an entry whose column is inside the array, for ANY three arrays read through the three input
    windows: the layer's function of them at row r, column 512 t + q. -/
theorem tile_entry (X : Vec Ideal S256x4352 .f32) (A : Vec Ideal S4352x4352 .f32) (B : Vec Ideal S1x4352 .f32) (t : Fin cfg0.N)
    (d1 : S512x4352.Idx → Elt Ideal .f32) (d2 : S1x512.Idx → Elt Ideal .f32) (r : Fin 256) (q : Fin 512) (i : S256x4352.Idx)
    (hq : q.val < (if t.val = 8 then 256 else 512)) (hi0 : (i 0).val = r.val) (hi1 : (i 1).val = t.val * 512 + q.val) :
    k0_pay1 (F := Ideal) ((win0_0.blk t).view.read (Elt Ideal) X) (win0_1.fill (grid0.coords t) d1 ((win0_1.blk t).view.read (Elt Ideal) A))
        (win0_2.fill (grid0.coords t) d2 ((win0_2.blk t).view.read (Elt Ideal) B)) (ix2 r q)
      = layerOf X A B i := by
  obtain ⟨s10, -, -, s21, -⟩ := tile_extent t
  have hr : (⟨(i 0).val, (i 0).isLt⟩ : Fin 256) = r := Fin.ext hi0
  refine (pay_at _ _ _ r q).trans ?_
  unfold layerOf
  rw [hr, b_read B t d2 q ⟨(i 1).val, (i 1).isLt⟩ (by rw [s21]; exact hq) hi1]
  refine congrArg (· + _) (Finset.sum_congr rfl fun k _ => ?_)
  rw [x_read X t r k, a_read A t d1 q k ⟨(i 1).val, (i 1).isLt⟩ (by rw [s10]; exact hq) hi1]

/-- THE TILE'S VALUE: whatever the weight and bias buffers hold past the arrays' end (`d1`, `d2`), the body's result
    on the columns the write-back moves is the layer's output read through the result's block. -/
theorem tile_cut (c : Dev nD) (t : Fin cfg0.N) (d1 : S512x4352.Idx → Elt Ideal .f32) (d2 : S1x512.Idx → Elt Ideal .f32) :
    win0_3.cut (grid0.coords t) (outTile (F := Ideal) (iblk m c 0 t) (win0_1.fill (grid0.coords t) d1 (iblk m c 1 t))
        (win0_2.fill (grid0.coords t) d2 (iblk m c 2 t)))
      = (win0_3.blk t).view.read (Elt Ideal) (layerOut m c) := by
  rw [outTile_eq]
  funext j
  obtain ⟨-, -, -, -, -, -, i30, i31⟩ := tile_index t
  obtain ⟨-, -, -, -, s30, s31⟩ := tile_extent t
  have hj0 : (j 0).val < 256 := by
    have h := (j 0).isLt; change (j 0).val < win0_3.xsize (grid0.coords t) (0 : Fin 2) at h; rwa [s30] at h
  have hj1 : (j 1).val < (if t.val = 8 then 256 else 512) := by
    have h := (j 1).isLt; change (j 1).val < win0_3.xsize (grid0.coords t) (1 : Fin 2) at h; rwa [s31] at h
  have hj1' : (j 1).val < 512 := by split at hj1 <;> omega
  -- the entry of the result array this entry of the block is written to: row (j 0), column 512 t + (j 1)
  have hi0 : ((win0_3.blk t).view.emb j 0).val = (j 0).val := by
    show win0_3.index t (0 : Fin 2) * 256 + 1 * (j 0).val = (j 0).val
    rw [i30]; omega
  have hi1 : ((win0_3.blk t).view.emb j 1).val = t.val * 512 + (j 1).val := by
    show win0_3.index t (1 : Fin 2) * 512 + 1 * (j 1).val = _
    rw [i31]; omega
  have hx : win0_3.xinj (grid0.coords t) j = ix2 (⟨(j 0).val, hj0⟩ : Fin 256) (⟨(j 1).val, hj1'⟩ : Fin 512) :=
    funext fun a => by match a with | ⟨0, _⟩ => rfl | ⟨1, _⟩ => rfl
  show k0_pay1 (F := Ideal) (iblk m c 0 t) (win0_1.fill (grid0.coords t) d1 (iblk m c 1 t)) (win0_2.fill (grid0.coords t) d2 (iblk m c 2 t))
      (win0_3.xinj (grid0.coords t) j) = layerOf (V m c main_arg0) (V m c main_v8) (V m c main_v9) ((win0_3.blk t).view.emb j)
  rw [hx]
  exact tile_entry (V m c main_arg0) (V m c main_v8) (V m c main_v9) t d1 d2 ⟨(j 0).val, hj0⟩ ⟨(j 1).val, hj1'⟩
    ((win0_3.blk t).view.emb j) hj1 hi0 hi1

/-! ## The body obligation -/

/-- The body at tile `t`, from what the loop hands it to what each window's obligation asks back: x's buffer exactly,
    the three loose windows on their parts inside the arrays. -/
theorem body_obligation (c : Dev nD) : BodyObligationLoose (dats m 0 c) (defs₀ (F := Ideal)) Variants.none () Set.univ := fun t => by
  rw [bigSep_W0, bigSep_W0]
  simp only
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩, ⟨%d3, H3⟩⟩
  rw [before0 m c t d0, before1 m c t d1, before2 m c t d2]
  iapply (sound_kernel (F := Ideal) c Set.univ (grid0.coords t)
    (win0_0.stage (cfg0.slots t 0)) (hstage0_0 ((cfg0.slots t 0).cast nbuf0_0)) (win0_1.stage (cfg0.slots t 1)) (hstage0_1 ((cfg0.slots t 1).cast nbuf0_1))
    (win0_2.stage (cfg0.slots t 2)) (hstage0_2 ((cfg0.slots t 2).cast nbuf0_2)) (win0_3.stage (cfg0.slots t 3)) (hstage0_3 ((cfg0.slots t 3).cast nbuf0_3))
    (iblk m c 0 t) (win0_1.fill (grid0.coords t) d1 (iblk m c 1 t)) (win0_2.fill (grid0.coords t) d2 (iblk m c 2 t)) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  have h1 : win0_1.cut (grid0.coords t) ((dats m 0 c).after 1 t) = iblk m c 1 t := by
    rw [after1]; exact win0_1.cut_fill _ _ _
  have h2 : win0_2.cut (grid0.coords t) ((dats m 0 c).after 2 t) = iblk m c 2 t := by
    rw [after2]; exact win0_2.cut_fill _ _ _
  have h3 : win0_3.cut (grid0.coords t) ((dats m 0 c).after 3 t) = (win0_3.blk t).view.read (Elt Ideal) (layerOut m c) := by
    rw [after3]; exact win0_3.cut_fill _ _ _
  have hout : win0_3.fill (grid0.coords t)
        (outTile (F := Ideal) (iblk m c 0 t) (win0_1.fill (grid0.coords t) d1 (iblk m c 1 t)) (win0_2.fill (grid0.coords t) d2 (iblk m c 2 t)))
        (win0_3.cut (grid0.coords t) ((dats m 0 c).after 3 t))
      = outTile (F := Ideal) (iblk m c 0 t) (win0_1.fill (grid0.coords t) d1 (iblk m c 1 t)) (win0_2.fill (grid0.coords t) d2 (iblk m c 2 t)) :=
    win0_3.fill_congr_cut _ ((tile_cut m c t d1 d2).trans h3.symm)
  isplitl [H0]
  · rw [after0]; iexact H0
  isplitl [H1]
  · iexists d1
    change _ ⊢ owns (c : Thread nD τ) (stage0_1 (cfg0.slots t 1)) fullShare (win0_1.fill (grid0.coords t) d1 (win0_1.cut (grid0.coords t) ((dats m 0 c).after 1 t)))
    rw [h1]; try iexact H1
  isplitl [H2]
  · iexists d2
    change _ ⊢ owns (c : Thread nD τ) (stage0_2 (cfg0.slots t 2)) fullShare (win0_2.fill (grid0.coords t) d2 (win0_2.cut (grid0.coords t) ((dats m 0 c).after 2 t)))
    rw [h2]; try iexact H2
  · iexists outTile (F := Ideal) (iblk m c 0 t) (win0_1.fill (grid0.coords t) d1 (iblk m c 1 t)) (win0_2.fill (grid0.coords t) d2 (iblk m c 2 t))
    change _ ⊢ owns (c : Thread nD τ) (stage0_3 (cfg0.slots t 3)) fullShare (win0_3.fill (grid0.coords t) _ (win0_3.cut (grid0.coords t) ((dats m 0 c).after 3 t)))
    rw [hout]; try iexact H3

/-! ## The run, and the result array -/

set_option backward.isDefEq.respectTransparency.types false in
/-- Every weakly fair execution of @main terminates with every array of the pipeline at what the library computes from
    the proof data and every other unscoped buffer as the region found it. -/
theorem run_main : θ_run defs (onTc (τ := τ) (main (F := Ideal))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- What tile `t` writes back is the layer's output read through the result's block. -/
theorem flushed_tile (c : Dev nD) (t : Fin cfg0.N) :
    (dats m 0 c).flushed 3 t = ((cfg0.win 3).blk t).view.read (Elt Ideal) (layerOut m c) := by
  show (cfg0.win 3).cut (grid0.coords t) ((dats m 0 c).after 3 t) = _
  rw [after3]; exact win0_3.cut_fill _ _ _

/-- An entry of the result is in tile `t`'s block iff its column is among the tile's columns inside the array. -/
theorem mem_tile (t : Fin cfg0.N) (i : S256x4352.Idx) :
    i ∈ ((cfg0.win 3).blk t).view.set ↔ ∀ a : Fin 2, win0_3.index t a * S256x512.size a ≤ (i a).val
      ∧ (i a).val < win0_3.index t a * S256x512.size a + win0_3.xsize (grid0.coords t) a := by
  show i ∈ ((View.whole main_v10).slice (win0_3.rect t)).set ↔ _
  rw [View.set_slice_whole, Rect.mem_set_unit]
  exact Iff.rfl

/-- The nine tiles' columns inside the array, 8 * 512 + 256 of them, are all 4352: column n is in tile n / 512. -/
theorem tiles_cover (i : S256x4352.Idx) :
    ∃ t : Fin cfg0.N, (cfg0.win 3).flush t = true ∧ i ∈ ((cfg0.win 3).blk t).view.set := by
  have h0 : (i 0).val < 256 := (i 0).isLt
  have h1 : (i 1).val < 4352 := (i 1).isLt
  have hN : (i 1).val / 512 < cfg0.N := by rw [show cfg0.N = 9 from N_0]; omega
  obtain ⟨-, -, -, -, -, -, i30, i31⟩ := tile_index ⟨(i 1).val / 512, hN⟩
  obtain ⟨-, -, -, -, s30, s31⟩ := tile_extent ⟨(i 1).val / 512, hN⟩
  refine ⟨⟨(i 1).val / 512, hN⟩, flush0_3 _, (mem_tile _ i).mpr fun a => ?_⟩
  match a with
  | ⟨0, _⟩ =>
    show win0_3.index ⟨(i 1).val / 512, hN⟩ (0 : Fin 2) * 256 ≤ (i 0).val
      ∧ (i 0).val < win0_3.index ⟨(i 1).val / 512, hN⟩ (0 : Fin 2) * 256 + win0_3.xsize (grid0.coords ⟨(i 1).val / 512, hN⟩) (0 : Fin 2)
    rw [i30, s30]; omega
  | ⟨1, _⟩ =>
    show win0_3.index ⟨(i 1).val / 512, hN⟩ (1 : Fin 2) * 512 ≤ (i 1).val
      ∧ (i 1).val < win0_3.index ⟨(i 1).val / 512, hN⟩ (1 : Fin 2) * 512 + win0_3.xsize (grid0.coords ⟨(i 1).val / 512, hN⟩) (1 : Fin 2)
    rw [i31, s31]
    show (i 1).val / 512 * 512 ≤ (i 1).val ∧ (i 1).val < (i 1).val / 512 * 512 + (if (i 1).val / 512 = 8 then 256 else 512)
    split <;> omega

/-- THE RESULT ARRAY after the run is the layer's output. -/
theorem final_out (c : Dev nD) : (dats m 0 c).arrAt 3 cfg0.N = layerOut m c :=
  (dats m 0 c).arrAt_eq_of_cover 3 (layerOut m c) (fun t _ => flushed_tile m c t) tiles_cover

end Cert.KernelIdeal.Hand

end
-- ==== Proof.Spec.lean ====
/-
  The dense layer, as one function of its arrays over the extended reals.

  out(r, n) = (sum over the 4352 input channels k of x(r, k) * a(n, k)) + bias(n), for 256 batch rows and 4352 output
  channels: x times the transpose of the dense weight matrix a, plus the bias on every row. Both programs build a
  from the sparse weights by the same host scatter; here a is just a matrix.
-/
import Idealize.ShloMosaic.PureOps.Ideal
import Idealize.ShloMosaic.Lib.ValueIdx

noncomputable section

namespace Cert.Spec

open Idealize.ShloMosaic Idealize.ShloMosaic.ValueIdx

/-- The layer's output at (r, n). -/
def denseLayer (x : (⟨2, ![256, 4352]⟩ : Shape).Idx → EReal) (a : (⟨2, ![4352, 4352]⟩ : Shape).Idx → EReal)
    (bias : (⟨1, ![4352]⟩ : Shape).Idx → EReal) : (⟨2, ![256, 4352]⟩ : Shape).Idx → EReal :=
  fun i => (∑ k : Fin 4352, x (ix2 (⟨(i 0).val, (i 0).isLt⟩ : Fin 256) k) * a (ix2 (⟨(i 1).val, (i 1).isLt⟩ : Fin 4352) k))
    + bias (ix1 (⟨(i 1).val, (i 1).isLt⟩ : Fin 4352))

end Cert.Spec

end
-- ==== Proof.Bridge.lean ====
/-
  The kernel's run, read as the layer's function of the argument arrays.

  Before the region the host scatters the sparse weights into a flat vector, reshapes it into the dense weight matrix,
  and reshapes the bias into a one-row matrix; x goes in as it is. So the arrays the region finds are: x; the same dense
  weight matrix the reference builds (the same scatter of the same indices, the same reshape, term for term); and the bias
  with a unit axis in front. The result array after the run is therefore the layer's function of x, that matrix and the
  bias.
-/
import proofs.«148907_j59356448030848_1_alg».proof.Proof.TileData
import proofs.«148907_j59356448030848_1_alg».proof.Proof.Spec
import proofs.«148907_j59356448030848_1_alg».proof.Proof.Gen.ReferenceIdeal.Read
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.Pipeline (Dat)
open Idealize.ShloMosaic.ValueIdx

variable (m : (ℓ : Loc nD τ sig) → Buf (Elt Ideal) ℓ) (ρ : Dev nD → PrngReg)

/-- The dense weight matrix the region finds is the reference's stage of the sparse weights and the index list. -/
theorem weights_eq (c : Dev nD) : (V m c main_v8 : Vec Ideal S4352x4352 .f32)
    = Cert.ReferenceIdeal.Read.val_main_v8 (F := Ideal) (m ((c : Thread nD τ).loc main_arg1)) (m ((c : Thread nD τ).loc main_arg3)) := by
  dsimp only [V, hostOps0]
  after_results
  rfl

/-- The one-row bias matrix the region finds, at column n, is bias entry n. -/
theorem bias_eq (c : Dev nD) (n : Fin 4352) :
    (V m c main_v9 : Vec Ideal S1x4352 .f32) (ix2 (0 : Fin 1) n) = m ((c : Thread nD τ).loc main_arg2) (ix1 n) := by
  have e : (V m c main_v9 : Vec Ideal S1x4352 .f32)
      = shapeCast S1x4352 (m ((c : Thread nD τ).loc main_arg2)) shapeCasts_S4352_S1x4352 := by
    dsimp only [V, hostOps0]
    after_results
    rfl
  rw [e]
  exact shapeCast_apply _ shapeCasts_S4352_S1x4352 (ix2 (0 : Fin 1) n) (ix1 n) (by
    rw [Shape.rowMajor_val_one, Shape.rowMajor_val_two]; show n.val = 0 * 4352 + n.val; omega)

/-- The layer over the arrays the region finds is the layer over the arguments. -/
theorem layerOut_eq (c : Dev nD) : layerOut m c
    = Cert.Spec.denseLayer (m ((c : Thread nD τ).loc main_arg0))
        (Cert.ReferenceIdeal.Read.val_main_v8 (F := Ideal) (m ((c : Thread nD τ).loc main_arg1)) (m ((c : Thread nD τ).loc main_arg3)))
        (m ((c : Thread nD τ).loc main_arg2)) := by
  funext i
  unfold layerOut layerOf Cert.Spec.denseLayer
  rw [bias_eq, weights_eq, V_main_arg0]

/-- THE KERNEL'S RUN: every weakly fair execution terminates with the result array at the layer's function of the
    arguments, and the arguments as they were. -/
theorem kernel_run : θ_run defs (onTc (τ := τ) (main (F := Ideal))) ⟨m, fun _ => 0, ρ⟩ (fun r => ∀ c : Dev nD,
      r.2.mem ((c.tc : Thread nD τ).loc main_v10)
        = Cert.Spec.denseLayer (m ((c.tc : Thread nD τ).loc main_arg0))
            (Cert.ReferenceIdeal.Read.val_main_v8 (F := Ideal) (m ((c.tc : Thread nD τ).loc main_arg1)) (m ((c.tc : Thread nD τ).loc main_arg3)))
            (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨((h c).1 3).trans ((final_out m c).trans (layerOut_eq m c)),
      ((h c).1 0).trans (((dats m 0 c).arrAt_in 0 rfl _).trans ((A_eq m c 0).trans (V_main_arg0 m c))),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c)⟩)
    (run_main m ρ)

end Cert.KernelIdeal.Hand

end
-- ==== Proof.RefValue.lean ====
/-
  The reference computes the dense layer.

  The reference transposes the dense weight matrix and contracts x's channel axis against the transpose's first axis,
  then adds the bias broadcast to every row: entry (r, n) is the sum over k of x(r, k) * aT(k, n) = x(r, k) * a(n, k), plus
  bias(n). Read stage by stage at an index, that is the layer's function, with the same order of the factors and of the
  two summands; only the index functions have to be identified.
-/
import proofs.«148907_j59356448030848_1_alg».proof.Proof.Spec
import proofs.«148907_j59356448030848_1_alg».proof.Proof.Gen.ReferenceIdeal.Read

noncomputable section

namespace Cert.ReferenceIdeal.RefValue

open Cert.ReferenceIdeal Cert.ReferenceIdeal.Gen Cert.ReferenceIdeal.Read
open Idealize.ShloMosaic Idealize.ShloMosaic.TcCoe Idealize.SL.Sem Idealize.ShloMosaic.ValueIdx

/-- The reference's result stage is the layer's function of x, the dense weight matrix stage and the bias. -/
theorem result_eq (x0 : (⟨S256x4352, .f32⟩ : BufTy).Contents (Elt Ideal)) (x1 : (⟨S5177344, .f32⟩ : BufTy).Contents (Elt Ideal))
    (x2 : (⟨S4352, .f32⟩ : BufTy).Contents (Elt Ideal)) (x3 : (⟨S5177344, .i32⟩ : BufTy).Contents (Elt Ideal)) :
    val_main_v13 (F := Ideal) x0 x1 x2 x3 = Cert.Spec.denseLayer x0 (val_main_v8 (F := Ideal) x1 x3) x2 := by
  funext i
  have hl : ∀ k : Fin 4352, lidx_main_v10 i k = ix2 (⟨(i 0).val, (i 0).isLt⟩ : Fin 256) k := fun k =>
    funext fun a => by match a with | ⟨0, _⟩ => rfl | ⟨1, _⟩ => rfl
  have hr : ∀ k : Fin 4352, idx_main_v9 (ridx_main_v10 i k) = ix2 (⟨(i 1).val, (i 1).isLt⟩ : Fin 4352) k := fun k =>
    funext fun a => by match a with | ⟨0, _⟩ => rfl | ⟨1, _⟩ => rfl
  have hb : idx_main_v11 (idx_main_v12 i) = ix1 (⟨(i 1).val, (i 1).isLt⟩ : Fin 4352) :=
    funext fun a => by match a with | ⟨0, _⟩ => rfl
  rw [val_main_v13_apply, val_main_v10_apply, val_main_v12_apply, val_main_v11_apply, hb]
  simp only [val_main_v9_apply, hl, hr]
  rfl

end Cert.ReferenceIdeal.RefValue

end
-- ==== Proof.lean ====
/-
  One dense layer y = x @ a.T + bias whose weight matrix a is scattered on the host from a sparse weight vector, as a
  kernel tiled over the output channels against the plain reference.

  Both programs build the flat dense weight vector by the same scatter of `weight` at `idx` (negative indices wrapped the
  same way) into zeros and reshape it to a 4352 x 4352 matrix a. The kernel then walks the 4352 output channels in nine
  tiles of 512; tile t multiplies x (256 x 4352) by rows 512 t .. 512 t + 511 of a, contracting the 4352 input channels,
  and adds the bias entries of those channels to every row. The reference transposes a, contracts x against it and adds
  the bias to every row. Over the extended reals the narrowings to bf16 are the identity, so both sides are, entry by
  entry, the sum over k of x(r, k) * a(n, k), plus bias(n): the same factors in the same order, the same two summands in the
  same order, so no law of arithmetic is used at all and the finiteness of the inputs is never needed.

  4352 = 8 * 512 + 256: the ninth tile overhangs the arrays. Its fetches bring in only the 256 rows of a and bias entries
  that exist, and the rest of those staging buffers holds words nothing names; its write-back moves only the 256 result
  columns that exist. Entry (r, q) of a tile reads just row q of the weight tile and entry q of the bias row, so the columns
  written back never depend on the unnamed words.

  The pieces: `BodyRunK` / `BodyRunI` run the kernel body once on whole staging buffers (word level / extended reals);
  `KernelFrame` is the word-level kernel's frame, from relational proof data that never says what the result's buffer
  holds; `PayloadAt` reads the body's payload at an entry; `TileData` has the proof data over the extended reals, the
  body's obligation on the parts of the buffers inside the arrays, the run and the result array as the layer's function;
  `Bridge` identifies the arrays the region finds with the reference's stages of the arguments; `RefValue` reads the
  reference's run as the same function; `Spec` is that function.
-/
import proofs.«148907_j59356448030848_1_alg».proof.Defs
import proofs.«148907_j59356448030848_1_alg».proof.Proof.Gen.Kernel
import proofs.«148907_j59356448030848_1_alg».proof.Proof.Gen.KernelIdeal
import proofs.«148907_j59356448030848_1_alg».proof.Proof.Gen.KernelIdeal.Frame
import proofs.«148907_j59356448030848_1_alg».proof.Proof.Gen.ReferenceIdeal
import proofs.«148907_j59356448030848_1_alg».proof.Proof.Gen.ReferenceIdeal.Run
import proofs.«148907_j59356448030848_1_alg».proof.Proof.Gen.ReferenceIdeal.Read
import proofs.«148907_j59356448030848_1_alg».proof.Proof.Gen.Pre_finite_inputs
import proofs.«148907_j59356448030848_1_alg».proof.Proof.KernelFrame
import proofs.«148907_j59356448030848_1_alg».proof.Proof.Bridge
import proofs.«148907_j59356448030848_1_alg».proof.Proof.RefValue
import Idealize.ShloMosaic.Adequacy
import Idealize.ShloMosaic.Init

noncomputable section

namespace Cert.Proof

open Idealize.ShloMosaic Idealize.SL.Sem

/-- The word-level kernel runs and leaves its arguments alone. -/
theorem frame_k : Cert.frame_Kernel := fun m ρ _ => Cert.Kernel.Hand.frame (F := Bits) m ρ

/-- So does the kernel read over the extended reals: the run that also names the result array, read at the arguments. -/
theorem frame_ki : Cert.frame_KernelIdeal := fun m ρ _ =>
  Cert.KernelIdeal.Gen.frame_of m ρ (Cert.KernelIdeal.Hand.dats m) (Cert.KernelIdeal.Hand.A_eq m) (Cert.KernelIdeal.Hand.run_main m ρ)

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- From memories agreeing on the arguments both programs end with the layer's function of the arguments. -/
theorem algebraic : Cert.algebraic_KernelIdeal_ReferenceIdeal := by
  intro m ρ m' ρ' _ hagree
  refine ⟨_, Cert.KernelIdeal.Hand.kernel_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v13_eq, Cert.ReferenceIdeal.RefValue.result_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
